-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x128 : Shape := ⟨3, ![32, 512, 128]⟩
abbrev S32x2048x128 : Shape := ⟨3, ![32, 2048, 128]⟩
abbrev S_ : Shape := ⟨0, ![]⟩

class Facts : Prop where
  bcast_S_S32x512x128 : S_.BroadcastsInDim S32x512x128 (![] : Fin 0 → Fin S32x512x128.rank)
  reducesTo_S32x512x128_S_d0_1_2 : S32x512x128.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn {F : FTy → Type} [FloatOps F] (main_arg0 : FVec F S32x512x128 .f32) (main_arg1 : FVec F S32x2048x128 .f32) : IVec S_ 1 :=
  let main_v0 : FVec F S32x512x128 .f32 := Host.absf main_arg0
  let main_cst : FVec F S_ .f32 := constant S_ .f32 0x7F800000#32
  let main_v1 : FVec F S32x512x128 .f32 := broadcastInDim S32x512x128 ![] bcast_S_S32x512x128 main_cst
  let main_v2 : IVec S32x512x128 1 := cmpf .olt main_v0 main_v1
  let main_c : IVec S_ 1 := constantI S_ 1 1#1
  let main_v3 : IVec S_ 1 := (fun x v => Host.reduce IntOp.andi x v reducesTo_S32x512x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  main_v8
-- ==== Kernel.lean ====
abbrev S32x512x128 : Shape := ⟨3, ![32, 512, 128]⟩
abbrev S32x2048x128 : Shape := ⟨3, ![32, 2048, 128]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x512x128, .f32⟩
  | .hbm, ⟨1, _⟩ => ⟨S32x2048x128, .f32⟩
  | .hbm, ⟨2, _⟩ => ⟨S32x512x128, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x256x128, .f32⟩
  | .local _ .vmem, ⟨5, _⟩ => ⟨S1x256x128, .f32⟩
  | _, _ => ⟨S32x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  broadcasts_S256x1_S256x128 : S256x1.Broadcasts S256x128
  shapeCasts_S256x128_S1x256x128 : S256x128.ShapeCasts S1x256x128
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S32x512x128.size a
  hwx0_0 : ∀ i : grid0.Coords, EltTy.bits .f32 = 32 ∨ (Rect.block (s := S32x512x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S32x512x128.size a
  hwx0_2 : ∀ i : grid0.Coords, EltTy.bits .f32 = 32 ∨ (Rect.block (s := S32x512x128) S1x256x128.size (cc0_transform_2 i) (hinb0_2 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x128 : Shape := ⟨3, ![32, 512, 128]⟩
abbrev S32x2048x128 : Shape := ⟨3, ![32, 2048, 128]⟩
abbrev S32x512x2048 : Shape := ⟨3, ![32, 512, 2048]⟩
abbrev S_ : Shape := ⟨0, ![]⟩
abbrev S32x512 : Shape := ⟨2, ![32, 512]⟩
abbrev S32x512x1 : Shape := ⟨3, ![32, 512, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x512x128, .f32⟩
  | .hbm, ⟨1, _⟩ => ⟨S32x2048x128, .f32⟩
  | .hbm, ⟨2, _⟩ => ⟨S32x512x2048, .f32⟩
  | .hbm, ⟨3, _⟩ => ⟨S_, .f32⟩
  | .hbm, ⟨4, _⟩ => ⟨S32x512, .f32⟩
  | .hbm, ⟨5, _⟩ => ⟨S32x512x1, .f32⟩
  | .hbm, ⟨6, _⟩ => ⟨S32x512x2048, .f32⟩
  | .hbm, ⟨7, _⟩ => ⟨S32x512x2048, .f32⟩
  | .hbm, ⟨8, _⟩ => ⟨S32x512x2048, .f32⟩
  | .hbm, ⟨9, _⟩ => ⟨S_, .f32⟩
  | .hbm, ⟨10, _⟩ => ⟨S32x512, .f32⟩
  | .hbm, ⟨11, _⟩ => ⟨S32x512x1, .f32⟩
  | .hbm, ⟨12, _⟩ => ⟨S_, .f32⟩
  | .hbm, ⟨13, _⟩ => ⟨S32x512x1, .f32⟩
  | .hbm, ⟨14, _⟩ => ⟨S32x512x1, .f32⟩
  | .hbm, ⟨15, _⟩ => ⟨S_, .f32⟩
  | .hbm, ⟨16, _⟩ => ⟨S32x512x1, .f32⟩
  | .hbm, ⟨17, _⟩ => ⟨S32x512x1, .f32⟩
  | .hbm, ⟨18, _⟩ => ⟨S32x512x2048, .f32⟩
  | .hbm, ⟨19, _⟩ => ⟨S32x512x2048, .f32⟩
  | .hbm, ⟨20, _⟩ => ⟨S32x512x128, .f32⟩
  | .hbm, ⟨21, _⟩ => ⟨S_, .f32⟩
  | .hbm, ⟨22, _⟩ => ⟨S32x512x128, .f32⟩
  | .hbm, ⟨23, _⟩ => ⟨S32x512x128, .f32⟩
  | .hbm, ⟨24, _⟩ => ⟨S32x512x128, .f32⟩
  | .hbm, ⟨25, _⟩ => ⟨S_, .f32⟩
  | .hbm, ⟨26, _⟩ => ⟨S32x512x128, .f32⟩
  | .hbm, ⟨27, _⟩ => ⟨S32x512x128, .f32⟩
  | .hbm, ⟨28, _⟩ => ⟨S32x512x128, .f32⟩
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S32x512x2048_S32x512_d2 : S32x512x2048.ReducesTo [2] S32x512
  h_S_ : 0 < S_.numel
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  bcast_S_S32x512x1 : S_.BroadcastsInDim S32x512x1 (![] : Fin 0 → Fin S32x512x1.rank)
  bcast_S_S32x512x128 : S_.BroadcastsInDim S32x512x128 (![] : Fin 0 → Fin S32x512x128.rank)
  dot_S32x512x128_S32x2048x128_S32x512x2048_2_2_1_1_0_0_wf : DotDims.WF S32x512x128 S32x2048x128 S32x512x2048 [2] [2] [1] [1] [0] [0]
  dot_S32x512x2048_S32x2048x128_S32x512x128_2_1_1_2_0_0_wf : DotDims.WF S32x512x2048 S32x2048x128 S32x512x128 [2] [1] [1] [2] [0] [0]

variable [Facts₀]

def dot_S32x512x128_S32x2048x128_S32x512x2048_2_2_1_1_0_0 : DotDims S32x512x128 S32x2048x128 S32x512x2048 where
  lhsContracting := [2]
  rhsContracting := [2]
  lhsNonContracting := [1]
  rhsNonContracting := [1]
  lhsBatch := [0]
  rhsBatch := [0]
  wf := dot_S32x512x128_S32x2048x128_S32x512x2048_2_2_1_1_0_0_wf
def dot_S32x512x2048_S32x2048x128_S32x512x128_2_1_1_2_0_0 : DotDims S32x512x2048 S32x2048x128 S32x512x128 where
  lhsContracting := [2]
  rhsContracting := [1]
  lhsNonContracting := [1]
  rhsNonContracting := [2]
  lhsBatch := [0]
  rhsBatch := [0]
  wf := dot_S32x512x2048_S32x2048x128_S32x512x128_2_1_1_2_0_0_wf

class Facts : Prop extends Facts₀ where

variable [Facts]
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibTransposedColumn.lean ====
/-
  A column of row statistics turned into a row, a shape cast that changes nothing, a row sum, and a product of two
  matrices along their rows, each read at an index given by coordinates. Independent of any program.

  * `shapeCast_same_apply` — a shape cast between equal shapes reads the operand at the same index.
  * `transposedColumn_apply` — a vector `[a]` kept as the column `[a, 1]` and then transposed to the row `[1, a]`
    holds, at `(u, i)`, the vector's entry `i`.
  * `lift_row`, `multiReduction_add_row` — a sum over the columns of an `[m, n]` array of extended reals, read at
    row `p`, is the sum over `k : Fin n` of the entries `(p, k)`.
  * `matmul_rows_rows_apply` — a product `[a, n] · [b, n]` with BOTH operands contracted along their last axis,
    into the zero accumulator, read at `(p, c)`, is the sum over `k : Fin n` of the left factor at `(p, k)` times the
    right factor at `(c, k)`: row `p` of the one against row `c` of the other. The contracted coordinates follow
    from which axes are contracted; the kept ones (`hl0`, `hr0`) are the caller's (they compute on a literal record).
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TransposedColumn

open Idealize.ShloMosaic Idealize.ShloMosaic.ValueIdx

variable {α : Type}

/-- A shape cast between equal shapes reads the operand at the same index: the row-major position is the same. -/
theorem shapeCast_same_apply {s : Shape} (x : s.Idx → α) (h : s.ShapeCasts s) (j : s.Idx) :
    shapeCast s x h j = x j :=
  shapeCast_apply x h j j rfl

/-- A vector `[a]` kept as the column `[a, 1]` and transposed to the row `[1, a]` holds, at `(u, i)`, entry `i`. -/
theorem transposedColumn_apply {a : ℕ} (x : (⟨1, ![a]⟩ : Shape).Idx → α)
    (hc : (⟨1, ![a]⟩ : Shape).ShapeCasts ⟨2, ![a, 1]⟩)
    (ht : (⟨2, ![a, 1]⟩ : Shape).Transposes [1, 0] ⟨2, ![1, a]⟩) (u : Fin 1) (i : Fin a) :
    transpose ⟨2, ![1, a]⟩ [1, 0] (shapeCast ⟨2, ![a, 1]⟩ x hc) ht (ix2 u i) = x (ix1 i) := by
  refine (transpose_ix2_apply (shapeCast ⟨2, ![a, 1]⟩ x hc) ht u i).trans ?_
  exact shapeCast_apply x hc _ _ (by
    have hu : u.val = 0 := by omega
    rw [Shape.rowMajor_val_two, Shape.rowMajor_val_one]
    show i.val = i.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A rows-by-rows product `[a, n] · [b, n]` into the zero accumulator, read at `(p, c)`: the sum over the shared
    last axis of row `p` of the left factor against row `c` of the right one. -/
theorem matmul_rows_rows_apply {a n b : ℕ} (d : DotDims ⟨2, ![a, n]⟩ ⟨2, ![b, n]⟩ ⟨2, ![a, b]⟩)
    (hr : d.contr.rank = 1) (hs : d.contr.size ⟨0, by omega⟩ = n)
    (hlc : d.lhsContracting = [1]) (hrc : d.rhsContracting = [1])
    (hl0 : ∀ (i : (⟨2, ![a, b]⟩ : Shape).Idx) (q : d.contr.Idx), (d.lhsIdx i q 0).val = (i 0).val)
    (hr0 : ∀ (i : (⟨2, ![a, b]⟩ : Shape).Idx) (q : d.contr.Idx), (d.rhsIdx i q 0).val = (i 1).val)
    {φ₁ φ₂ : FTy} (prec : Option ContractPrecision) (lhs : FVec Ideal ⟨2, ![a, n]⟩ φ₁) (rhs : FVec Ideal ⟨2, ![b, n]⟩ φ₂)
    (p : Fin a) (c : Fin b) :
    FloatOps.matmul d prec lhs rhs (constant ⟨2, ![a, b]⟩ .f32 0x00000000#32) (ix2 p c)
      = ∑ k : Fin n, lhs (ix2 p k) * rhs (ix2 c k) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 c k := by
    funext ax; apply Fin.ext
    match ax with
    | ⟨0, _⟩ => exact hr0 _ _
    | ⟨1, _⟩ => exact (d.rhsIdx_val_of_single hrc _ _).trans hk
  rw [hL, hR]

end Cert.TransposedColumn

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.RowLaw.lean ====
/-
  One row of the power-normalised attention, on the extended reals.

  For a row of scores r (one score per item) and one feature column v of the items, the weights are
  e_j = exp(r_j − max r) and their total is T = Σ_j e_j. The attention value of the row is written in two
  arrangements:

    * normalise first:  Σ_j (e_j / (T^(1/2) + ε)) · v_j,   the power taken by the general power function;
    * normalise last:   (Σ_j e_j · v_j) · (1 / (√T + ε)),  the power taken by the square root.

  When every score and every feature is a real number the maximum is real, every weight is a positive real, T is a
  positive real, T^(1/2) = √T, and √T + ε is a positive real, so the division is multiplication by a real and moves
  across the finite sum: the two arrangements agree (`row_law`). At the infinities multiplication does not
  distribute over addition, which is why the entries are assumed real.
-/
import proofs.«169750_j56530359550479_2_alg».proof.Proof.LibRealSums
import Mathlib.Analysis.SpecialFunctions.Pow.Real
import Mathlib.Analysis.SpecialFunctions.Sqrt
import Idealize.ShloMosaic.Lib.IdealHost

noncomputable section

open scoped BigOperators

namespace Cert.PowerAttention

open Idealize.ShloMosaic Cert.Math

/-- The weight of item j in a row of scores: e^(r_j − max r), the maximum a fold from −∞. -/
def weight {n : ℕ} (r : Fin n → EReal) (j : Fin n) : EReal :=
  Ideal.exp (r j - (Finset.univ : Finset (Fin n)).fold max (Ideal.ofBits .f32 0xFF800000#32) r)

/-- The row's value with the normalisation applied after the weighted sum, the power a square root. -/
def normLast {n : ℕ} (r v : Fin n → EReal) : EReal :=
  (∑ j, weight r j * v j)
    * Ideal.div (Ideal.ofBits .f32 0x3F800000#32) (Ideal.sqrt (∑ j, weight r j) + Ideal.ofBits .f32 0x179ABE15#32)

/-- The row's value with every weight normalised before the weighted sum, the power the general power function at
    the exponent 1/2, the total started from the zero word. -/
def normFirst {n : ℕ} (r v : Fin n → EReal) : EReal :=
  ∑ j, Ideal.div (weight r j)
      (Ideal.pow (Ideal.ofBits .f32 0x00000000#32 + ∑ j', weight r j') (Ideal.ofBits .f32 0x3F000000#32)
        + Ideal.ofBits .f32 0x179ABE15#32) * v j

/-- The f32 word 0x3F000000 is the real 1/2. -/
theorem ofBits_half : Ideal.ofBits .f32 0x3F000000#32 = ((2⁻¹ : ℝ) : EReal) := by
  simp [Ideal.ofBits, Ideal.ieee, -EReal.coe_mul]; norm_num

/-- The f32 word 0x179ABE15 (the float nearest 10^-24) is a positive real. -/
theorem ofBits_eps : ∃ c : ℝ, 0 < c ∧ Ideal.ofBits .f32 0x179ABE15#32 = (c : EReal) := by
  refine ⟨1 * ((2 ^ 23 + 1752597 : ℕ) : ℝ) * (2 : ℝ) ^ ((47 : ℤ) - (2 ^ (8 - 1) - 1) - (23 : ℕ)), by positivity, ?_⟩
  simp [Ideal.ofBits, Ideal.ieee, -EReal.coe_mul]

/-- The two arrangements of a row agree when every score and every feature is real. -/
theorem row_law {n : ℕ} (r v : Fin n → EReal) (hr : ∀ j, IsReal (r j)) (hv : ∀ j, IsReal (v j)) (j0 : Fin n) :
    normFirst r v = normLast r v := by
  unfold normFirst normLast weight
  rw [ofBits_neg_inf, Ideal.ofBits_zero_f32, zero_add, ofBits_half, Ideal.ofBits_one_f32]
  obtain ⟨c, hc, hceps⟩ := ofBits_eps
  rw [hceps]
  choose r' hr' using hr
  choose v' hv' using hv
  -- the maximum is real: below +∞ since every score is, above −∞ since it bounds r j0
  have hm_top : (Finset.univ : Finset (Fin n)).fold max ⊥ r < ⊤ :=
    (Finset.fold_max_lt ⊤).mpr ⟨bot_lt_top, fun j _ => by rw [hr' j]; exact EReal.coe_lt_top _⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e, hr' j0] at hm_ge; exact EReal.coe_ne_bot _ (le_bot_iff.mp hm_ge)
  generalize (Finset.univ : Finset (Fin n)).fold max ⊥ r = m at hm_top hm_bot ⊢
  lift m to ℝ using ⟨hm_top.ne, hm_bot⟩
  -- every weight is a positive real, and so is their total
  have hw : ∀ j, Ideal.exp (r j - (m : EReal)) = ((Real.exp (r' j - m) : ℝ) : EReal) := by
    intro j; rw [hr' j, ← EReal.coe_sub, Ideal.exp_coe]
  have hT : 0 < ∑ j, Real.exp (r' j - m) :=
    Finset.sum_pos (fun j _ => Real.exp_pos _) ⟨j0, Finset.mem_univ j0⟩
  have eT : ∑ j, Ideal.exp (r j - (m : EReal)) = ((∑ j, Real.exp (r' j - m) : ℝ) : EReal) := by
    rw [coe_sum]; exact Finset.sum_congr rfl (fun j _ => hw j)
  rw [eT]
  generalize hTdef : ∑ j, Real.exp (r' j - m) = T at hT
  -- the two powers are one real, and the divisor is a positive real
  have hpow : Ideal.pow (T : EReal) ((2⁻¹ : ℝ) : EReal) = ((Real.sqrt T : ℝ) : EReal) := by
    rw [Ideal.pow_coe_coe, Real.sqrt_eq_rpow, one_div]; rfl
  have hsqrt : Ideal.sqrt (T : EReal) = ((Real.sqrt T : ℝ) : EReal) := by
    rw [Ideal.sqrt_coe, if_neg (not_lt.mpr hT.le)]
  rw [hpow, hsqrt, ← EReal.coe_add]
  have hL : Real.sqrt T + c ≠ 0 := (add_pos_of_nonneg_of_pos (Real.sqrt_nonneg T) hc).ne'
  rw [Ideal.div_coe hL]
  have e1 : ∀ j ∈ (Finset.univ : Finset (Fin n)),
      Ideal.div (Ideal.exp (r j - (m : EReal))) ((Real.sqrt T + c : ℝ) : EReal) * v j
        = ((Real.exp (r' j - m) * (1 / (Real.sqrt T + c)) * v' j : ℝ) : EReal) := by
    intro j _
    rw [Ideal.div_coe hL, hw j, hv' j, EReal.coe_mul, EReal.coe_mul]
  have e2 : ∀ j ∈ (Finset.univ : Finset (Fin n)),
      Ideal.exp (r j - (m : EReal)) * v j = ((Real.exp (r' j - m) * v' j : ℝ) : EReal) := by
    intro j _
    rw [hw j, hv' j, EReal.coe_mul]
  rw [Finset.sum_congr rfl e1, Finset.sum_congr rfl e2, ← coe_sum, ← coe_sum,
    show (1 : EReal) = ((1 : ℝ) : EReal) from EReal.coe_one.symm, ← EReal.coe_mul, ← EReal.coe_mul, Finset.sum_mul]
  exact congrArg _ (Finset.sum_congr rfl (fun j _ => by ring))

end Cert.PowerAttention

end
-- ==== Proof.Spec.lean ====
/-
  The power-normalised attention blend as ONE function of the two argument arrays, index by index.

  x is the sequence array [32, 512, 128] (batch, position, feature) and f the item array [32, 2048, 128]
  (batch, item, feature). For a batch b and a position l the score of item n is the inner product of the
  position's feature row with the item's, score(b, l, n) = Σ_k x(b, l, k) · f(b, n, k). The row of scores is
  turned into an attention value per feature d (RowLaw: weights e^(score − max), their total raised to the power
  1/2 plus ε as the divisor, the weighted sum of the items' feature d), and the result is the blend
  x · 1/2 + (x · attention) · 1/2.

  `attnLast` applies the divisor after the weighted sum (a square root), `attnFirst` to every weight before it
  (the general power function); they agree wherever both arrays hold real numbers (`attn_first_eq_last`).
-/
import proofs.«169750_j56530359550479_2_alg».proof.Proof.RowLaw
import Idealize.ShloMosaic.Lib.ValueIdx

noncomputable section

open scoped BigOperators

namespace Cert.PowerAttention

open Idealize.ShloMosaic Idealize.ShloMosaic.ValueIdx Cert.Math

/-- The sequence array's shape: batch, position, feature. -/
abbrev SeqShape : Shape := ⟨3, ![32, 512, 128]⟩
/-- The item array's shape: batch, item, feature. -/
abbrev ItemShape : Shape := ⟨3, ![32, 2048, 128]⟩

/-- The score of item n at batch b, position l: the inner product of the two feature rows. -/
def score (x : SeqShape.Idx → EReal) (f : ItemShape.Idx → EReal) (b : Fin 32) (l : Fin 512) (n : Fin 2048) : EReal :=
  ∑ k : Fin 128, x (ix3 b l k) * f (ix3 b n k)

/-- The blend at (b, l, d), the divisor applied after the weighted sum. -/
def attnLastAt (x : SeqShape.Idx → EReal) (f : ItemShape.Idx → EReal) (b : Fin 32) (l : Fin 512) (d : Fin 128) : EReal :=
  x (ix3 b l d) * Ideal.ofBits .f32 0x3F000000#32
    + x (ix3 b l d) * normLast (score x f b l) (fun n => f (ix3 b n d)) * Ideal.ofBits .f32 0x3F000000#32

/-- The blend at (b, l, d), every weight divided before the weighted sum. -/
def attnFirstAt (x : SeqShape.Idx → EReal) (f : ItemShape.Idx → EReal) (b : Fin 32) (l : Fin 512) (d : Fin 128) : EReal :=
  x (ix3 b l d) * Ideal.ofBits .f32 0x3F000000#32
    + x (ix3 b l d) * normFirst (score x f b l) (fun n => f (ix3 b n d)) * Ideal.ofBits .f32 0x3F000000#32

/-- The whole result array, the divisor applied last. -/
def attnLast (x : SeqShape.Idx → EReal) (f : ItemShape.Idx → EReal) : SeqShape.Idx → EReal :=
  fun i => attnLastAt x f (i 0) (i 1) (i 2)

/-- The whole result array, the divisor applied first. -/
def attnFirst (x : SeqShape.Idx → EReal) (f : ItemShape.Idx → EReal) : SeqShape.Idx → EReal :=
  fun i => attnFirstAt x f (i 0) (i 1) (i 2)

/-- A score of real arrays is real: a finite sum of products of reals. -/
theorem score_isReal (x : SeqShape.Idx → EReal) (f : ItemShape.Idx → EReal) (hx : ∀ i, IsReal (x i)) (hf : ∀ i, IsReal (f i))
    (b : Fin 32) (l : Fin 512) (n : Fin 2048) : IsReal (score x f b l n) :=
  IsReal.sum _ _ fun k _ => (hx _).mul (hf _)

/-- On real arrays the two arrangements agree at every (b, l, d): the row law, for the row of scores of (b, l). -/
theorem attnAt_first_eq_last (x : SeqShape.Idx → EReal) (f : ItemShape.Idx → EReal) (hx : ∀ i, IsReal (x i)) (hf : ∀ i, IsReal (f i))
    (b : Fin 32) (l : Fin 512) (d : Fin 128) : attnFirstAt x f b l d = attnLastAt x f b l d := by
  unfold attnFirstAt attnLastAt
  rw [row_law _ _ (fun n => score_isReal x f hx hf b l n) (fun n => hf _) (0 : Fin 2048)]

/-- On real arrays the two arrangements are one array. -/
theorem attn_first_eq_last (x : SeqShape.Idx → EReal) (f : ItemShape.Idx → EReal) (hx : ∀ i, IsReal (x i)) (hf : ∀ i, IsReal (f i)) :
    attnFirst x f = attnLast x f :=
  funext fun i => attnAt_first_eq_last x f hx hf (i 0) (i 1) (i 2)

end Cert.PowerAttention

end
-- ==== Proof.KernelBlock.lean ====
/-
  What one grid point of the kernel computes, read at an index of its output block.

  A point holds a block X of 256 positions of one batch (256 × 128, from the loaded [1, 256, 128] block) and all
  2048 items Fm of that batch (2048 × 128). The body forms the score matrix X · Fmᵀ (256 × 2048, both operands
  contracted along their feature axis), turns every row into weights e^(score − row maximum), multiplies the
  weights with the items (256 × 128, a rows-by-columns product), and scales row p of that product by
  1 / (√(total weight of row p) + ε); the stored value is X · 1/2 + (X · scaled product) · 1/2. The change of
  float format before each product is the identity on the extended reals.

  The body is cut into these stages as named terms (the printed payload is their composition, by unfolding),
  each stage is read at an index, and `payload_apply` puts the readings together: entry (p, c) of the block is
  the blend of Spec for the row of scores of position p and feature column c of the items.
-/
import proofs.«169750_j56530359550479_2_alg».proof.Proof.Gen.KernelIdeal.Skeleton
import proofs.«169750_j56530359550479_2_alg».proof.Proof.LibRowSoftmax
import proofs.«169750_j56530359550479_2_alg».proof.Proof.LibTransposedColumn
import proofs.«169750_j56530359550479_2_alg».proof.Proof.Spec
import Idealize.ShloMosaic.Lib.ValueLayout

noncomputable section

open scoped BigOperators

namespace Cert.KernelIdeal.Block

open Cert.KernelIdeal Cert.KernelIdeal.Gen Idealize.ShloMosaic Idealize.ShloMosaic.ValueIdx Cert.PowerAttention

/-! ## The kept coordinates of the two products -/

/-- Scores: the left operand keeps the output's row. -/
theorem scores_lhs0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl

/-- Scores: the right operand's row is the output's column. -/
theorem scores_rhs0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl

/-- Weighted items: the left operand keeps the output's row. -/
theorem items_lhs0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl

/-- Weighted items: the right operand keeps the output's column. -/
theorem items_rhs1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-! ## The stages of the body -/

/-- The positions' block as a matrix. -/
def posBlock (v0 : Vec Ideal S1x256x128 .f32) : FVec Ideal S256x128 .f32 :=
  shapeCast S256x128 v0 shapeCasts_S1x256x128_S256x128

/-- The items' block as a matrix. -/
def itemBlock (v2 : Vec Ideal S1x2048x128 .f32) : FVec Ideal S2048x128 .f32 :=
  shapeCast S2048x128 v2 shapeCasts_S1x2048x128_S2048x128

/-- The score matrix: positions against items along the features. -/
def scoreBlock (X : FVec Ideal S256x128 .f32) (Fm : FVec Ideal S2048x128 .f32) : FVec Ideal S256x2048 .f32 :=
  matmul dot_S256x128_S2048x128_S256x2048_1_1_0_0_n_n none (truncf .bf16 X bitsLt_bf16_f32) (truncf .bf16 Fm bitsLt_bf16_f32) (constant S256x2048 .f32 0x00000000#32)

/-- The weights: every row of scores minus its maximum, exponentiated. -/
def weightBlock (s : FVec Ideal S256x2048 .f32) : FVec Ideal S256x2048 .f32 :=
  Cert.RowSoftmax.expRows s reduces_S256x2048_S256 (.inl rfl) rfl shapeCasts_S256_S256x1 broadcasts_S256x1_S256x2048

/-- The column of reciprocals 1 / (√(row total) + ε). -/
def recipColumn (e : FVec Ideal S256x2048 .f32) : FVec Ideal S256x1 .f32 :=
  divf (broadcast S256x1 (Scalar.ofBits .f32 0x3F800000#32))
    (addf (sqrt (shapeCast S256x1 (multiReduction .add [1] S256 e 0x00000000#32 reduces_S256x2048_S256 (.inl rfl) rfl) shapeCasts_S256_S256x1))
      (broadcast S256x1 (Scalar.ofBits .f32 0x179ABE15#32)))

/-- The weights against the items: rows by columns. -/
def weightedItems (e : FVec Ideal S256x2048 .f32) (Fm : FVec Ideal S2048x128 .f32) : FVec Ideal S256x128 .f32 :=
  matmul dot_S256x2048_S2048x128_S256x128_1_0_0_1_n_n none (truncf .bf16 e bitsLt_bf16_f32) (truncf .bf16 Fm bitsLt_bf16_f32) (constant S256x128 .f32 0x00000000#32)

/-- The blend X · 1/2 + (X · (product scaled row by row)) · 1/2. -/
def blendBlock (X av : FVec Ideal S256x128 .f32) (rc : FVec Ideal S256x1 .f32) : FVec Ideal S256x128 .f32 :=
  addf (mulf X (broadcast S256x128 (Scalar.ofBits .f32 0x3F000000#32)))
    (mulf (mulf X (mulf av (broadcastTo S256x128 rc broadcasts_S256x1_S256x128))) (broadcast S256x128 (Scalar.ofBits .f32 0x3F000000#32)))

/-- The printed payload is the composition of the stages. -/
theorem payload_eq (v0 : Vec Ideal S1x256x128 .f32) (v2 : Vec Ideal S1x2048x128 .f32) :
    k0_pay1 (F := Ideal) v0 v2
      = shapeCast S1x256x128
          (blendBlock (posBlock v0) (weightedItems (weightBlock (scoreBlock (posBlock v0) (itemBlock v2))) (itemBlock v2))
            (recipColumn (weightBlock (scoreBlock (posBlock v0) (itemBlock v2)))))
          shapeCasts_S256x128_S1x256x128 := rfl

/-! ## Each stage at an index -/

theorem posBlock_apply (v0 : Vec Ideal S1x256x128 .f32) (p : Fin 256) (k : Fin 128) :
    posBlock v0 (ix2 p k) = v0 (ix3 (0 : Fin 1) p k) :=
  shapeCast_1ab_ab_apply v0 shapeCasts_S1x256x128_S256x128 p k

theorem itemBlock_apply (v2 : Vec Ideal S1x2048x128 .f32) (n : Fin 2048) (k : Fin 128) :
    itemBlock v2 (ix2 n k) = v2 (ix3 (0 : Fin 1) n k) :=
  shapeCast_1ab_ab_apply v2 shapeCasts_S1x2048x128_S2048x128 n k

/-- A score is the inner product of position p's features with item n's. -/
theorem scoreBlock_apply (X : FVec Ideal S256x128 .f32) (Fm : FVec Ideal S2048x128 .f32) (p : Fin 256) (n : Fin 2048) :
    scoreBlock X Fm (ix2 p n) = ∑ k : Fin 128, X (ix2 p k) * Fm (ix2 n k) :=
  Cert.TransposedColumn.matmul_rows_rows_apply dot_S256x128_S2048x128_S256x2048_1_1_0_0_n_n rfl rfl rfl rfl scores_lhs0 scores_rhs0 none
    (truncf .bf16 X bitsLt_bf16_f32) (truncf .bf16 Fm bitsLt_bf16_f32) p n

/-- A weight is the weight of Spec's row of scores. -/
theorem weightBlock_apply (s : FVec Ideal S256x2048 .f32) (p : Fin 256) (n : Fin 2048) :
    weightBlock s (ix2 p n) = weight (fun j => s (ix2 p j)) n :=
  Cert.RowSoftmax.expRows_apply s reduces_S256x2048_S256 (.inl rfl) rfl shapeCasts_S256_S256x1 broadcasts_S256x1_S256x2048 p n

/-- Entry p of the reciprocal column. -/
theorem recipColumn_apply (e : FVec Ideal S256x2048 .f32) (p : Fin 256) :
    recipColumn e (ix2 p (0 : Fin 1))
      = Ideal.div (Ideal.ofBits .f32 0x3F800000#32) (Ideal.sqrt (∑ j : Fin 2048, e (ix2 p j)) + Ideal.ofBits .f32 0x179ABE15#32) := by
  unfold recipColumn
  show Ideal.div (Ideal.ofBits .f32 0x3F800000#32)
      (Ideal.sqrt (shapeCast S256x1 (multiReduction .add [1] S256 e 0x00000000#32 reduces_S256x2048_S256 (.inl rfl) rfl) shapeCasts_S256_S256x1 (ix2 p (0 : Fin 1)))
        + Ideal.ofBits .f32 0x179ABE15#32) = _
  rw [Cert.RowSoftmax.column_apply]
  exact congrArg (fun z => Ideal.div (Ideal.ofBits .f32 0x3F800000#32) (Ideal.sqrt z + Ideal.ofBits .f32 0x179ABE15#32))
    (Cert.TransposedColumn.multiReduction_add_row e 0x00000000#32 reduces_S256x2048_S256 (.inl rfl) rfl p)

/-- Entry (p, c) of the weights against the items. -/
theorem weightedItems_apply (e : FVec Ideal S256x2048 .f32) (Fm : FVec Ideal S2048x128 .f32) (p : Fin 256) (c : Fin 128) :
    weightedItems e Fm (ix2 p c) = ∑ n : Fin 2048, e (ix2 p n) * Fm (ix2 n c) :=
  Cert.RowSoftmax.matmul_rows_cols_apply dot_S256x2048_S2048x128_S256x128_1_0_0_1_n_n rfl rfl rfl rfl items_lhs0 items_rhs1 none
    (truncf .bf16 e bitsLt_bf16_f32) (truncf .bf16 Fm bitsLt_bf16_f32) p c

/-- Entry (p, c) of the blend. -/
theorem blendBlock_apply (X av : FVec Ideal S256x128 .f32) (rc : FVec Ideal S256x1 .f32) (p : Fin 256) (c : Fin 128) :
    blendBlock X av rc (ix2 p c)
      = X (ix2 p c) * Ideal.ofBits .f32 0x3F000000#32
        + X (ix2 p c) * (av (ix2 p c) * rc (ix2 p (0 : Fin 1))) * Ideal.ofBits .f32 0x3F000000#32 := by
  unfold blendBlock
  show X (ix2 p c) * Ideal.ofBits .f32 0x3F000000#32
      + X (ix2 p c) * (av (ix2 p c) * broadcastTo S256x128 rc broadcasts_S256x1_S256x128 (ix2 p c)) * Ideal.ofBits .f32 0x3F000000#32 = _
  rw [Cert.RowSoftmax.column_broadcast_apply]

/-! ## The payload at an index -/

/-- Entry (p, c) of the block a point stores: the blend for position p and feature c, over the loaded blocks. -/
theorem payload_apply (v0 : Vec Ideal S1x256x128 .f32) (v2 : Vec Ideal S1x2048x128 .f32) (u : Fin 1) (p : Fin 256) (c : Fin 128) :
    k0_pay1 (F := Ideal) v0 v2 (ix3 u p c)
      = v0 (ix3 (0 : Fin 1) p c) * Ideal.ofBits .f32 0x3F000000#32
        + v0 (ix3 (0 : Fin 1) p c)
            * normLast (fun n : Fin 2048 => ∑ k : Fin 128, v0 (ix3 (0 : Fin 1) p k) * v2 (ix3 (0 : Fin 1) n k))
                (fun n : Fin 2048 => v2 (ix3 (0 : Fin 1) n c))
            * Ideal.ofBits .f32 0x3F000000#32 := by
  rw [payload_eq, shapeCast_ab_1ab_apply, blendBlock_apply, weightedItems_apply, recipColumn_apply, posBlock_apply]
  unfold normLast
  simp only [weightBlock_apply, scoreBlock_apply, posBlock_apply, itemBlock_apply]

end Cert.KernelIdeal.Block

end
-- ==== Proof.KernelValue.lean ====
/-
  The kernel's result array as one function of the argument arrays.

  The grid has 64 points; point t works on batch t / 2 and on the half t % 2 of that batch's 512 positions. Its
  position block is rows 256·(t % 2) … 256·(t % 2) + 255 of batch t / 2 of the sequence array, its item block is
  the whole batch t / 2 of the item array, and it writes back rows 256·(t % 2) … of batch t / 2 of the result. By
  KernelBlock, the entry it stores at row p, feature c is the blend (Spec's `attnLastAt`) for that batch, position
  256·(t % 2) + p and feature c: the row of scores of that position against all items of the batch. So what point t
  writes back is block t of the whole-array function `attnLast` of the two argument arrays; the 64 blocks cover
  the result array (entry (b, l, d) lies in the block of point 2·b + l / 256), hence the array ends equal to it.
-/
import proofs.«169750_j56530359550479_2_alg».proof.Proof.Gen.KernelIdeal.Value
import proofs.«169750_j56530359550479_2_alg».proof.Proof.KernelBlock
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.PowerAttention
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the grid: the position window and the output window move together (batch t / 2,
    half t % 2, feature block 0); the item window follows the batch only. -/
theorem index_maps : ∀ t : Fin cfg0.N,
    win0_2.index t (0 : Fin 3) = t.val / 2 ∧ win0_2.index t (1 : Fin 3) = t.val % 2 ∧ win0_2.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0 :=
  (by decide +kernel : ∀ t : Fin grid0.N, _)

/-- An entry of the position block at point t is the sequence array's entry at the block's offset plus the
    coordinates inside the block. -/
theorem posBlock_read (c : Dev nD) (t : Fin cfg0.N) (y : S1x256x128.Idx) (k : S32x512x128.Idx)
    (h0 : (k 0).val = win0_0.index t (0 : Fin 3) * 1 + (y 0).val)
    (h1 : (k 1).val = win0_0.index t (1 : Fin 3) * 256 + (y 1).val)
    (h2 : (k 2).val = win0_0.index t (2 : Fin 3) * 128 + (y 2).val) :
    (iblk m c 0 t : Vec Ideal S1x256x128 .f32) y = (V m c main_arg0 : S32x512x128.Idx → EReal) k := by
  unfold iblk
  rw [View.read_apply]
  show V m c main_arg0 _ = V m c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 128 + 1 * (y 2).val = (k 2).val; omega

/-- An entry of the item block at point t is the item array's entry at the block's offset plus the coordinates
    inside the block. -/
theorem itemBlock_read (c : Dev nD) (t : Fin cfg0.N) (y : S1x2048x128.Idx) (k : S32x2048x128.Idx)
    (h0 : (k 0).val = win0_1.index t (0 : Fin 3) * 1 + (y 0).val)
    (h1 : (k 1).val = win0_1.index t (1 : Fin 3) * 2048 + (y 1).val)
    (h2 : (k 2).val = win0_1.index t (2 : Fin 3) * 128 + (y 2).val) :
    (iblk m c 1 t : Vec Ideal S1x2048x128 .f32) y = (V m c main_arg1 : S32x2048x128.Idx → EReal) k := by
  unfold iblk
  rw [View.read_apply]
  show V m c main_arg1 _ = V m c main_arg1 _
  congr 1
  funext a
  apply Fin.ext
  match a with
  | ⟨0, _⟩ => show win0_1.index t (0 : Fin 3) * 1 + 1 * (y 0).val = (k 0).val; omega
  | ⟨1, _⟩ => show win0_1.index t (1 : Fin 3) * 2048 + 1 * (y 1).val = (k 1).val; omega
  | ⟨2, _⟩ => show win0_1.index t (2 : Fin 3) * 128 + 1 * (y 2).val = (k 2).val; omega

/-- One stored entry: over blocks that hold row l of batch b of the sequence array at row p and batch b of the
    item array, the body's entry (p, d) is the blend at (b, l, d). -/
theorem point_value (x : S32x512x128.Idx → EReal) (f : S32x2048x128.Idx → EReal)
    (v0 : Vec Ideal S1x256x128 .f32) (v2 : Vec Ideal S1x2048x128 .f32)
    (u : Fin 1) (p : Fin 256) (d : Fin 128) (b : Fin 32) (l : Fin 512) (d' : Fin 128) (hd : d' = d)
    (h0 : ∀ k : Fin 128, v0 (ix3 (0 : Fin 1) p k) = x (ix3 b l k))
    (h2 : ∀ (n : Fin 2048) (k : Fin 128), v2 (ix3 (0 : Fin 1) n k) = f (ix3 b n k)) :
    k0_pay1 (F := Ideal) v0 v2 (ix3 u p d) = attnLastAt x f b l d' := by
  subst hd
  rw [Cert.KernelIdeal.Block.payload_apply]
  unfold attnLastAt score
  simp only [h0, h2]

/-- WHAT POINT t WRITES BACK is block t of the blend of the two argument arrays. -/
theorem flushed_eq (c : Dev nD) (t : Fin cfg0.N) :
    (dats m 0 c).flushed 2 t
      = ((cfg0.win 2).blk t).view.read (Elt Ideal) (attnLast (V m c main_arg0) (V m c main_arg1)) := by
  rw [Cert.KernelIdeal.Value.flushed2]
  unfold out0_2
  rw [View.canon_unit_zero zero_offsets]
  simp only [View.ld_unit_zero (S := S1x256x128) zero_offsets, View.ld_unit_zero (S := S1x2048x128) zero_offsets]
  obtain ⟨e20, e21, e22, e00, e01, e02, e10, e11, e12⟩ := index_maps t
  funext y
  refine (congrArg (k0_pay1 (F := Ideal) (iblk m c 0 t) (iblk m c 1 t)) (eq_ix3 (n0 := 1) (n1 := 256) (n2 := 128) y)).trans ?_
  have hy0 : (y 0).val = 0 := by have h : (y 0).val < 1 := (y 0).isLt; omega
  have E0 : ((((cfg0.win 2).blk t).view.emb y) 0).val = win0_2.index t (0 : Fin 3) * 1 + 1 * (y 0).val := rfl
  have E1 : ((((cfg0.win 2).blk t).view.emb y) 1).val = win0_2.index t (1 : Fin 3) * 256 + 1 * (y 1).val := rfl
  have E2 : ((((cfg0.win 2).blk t).view.emb y) 2).val = win0_2.index t (2 : Fin 3) * 128 + 1 * (y 2).val := rfl
  exact point_value (V m c main_arg0) (V m c main_arg1) (iblk m c 0 t) (iblk m c 1 t) (y 0) (y 1) (y 2)
    ((((cfg0.win 2).blk t).view.emb y) 0) ((((cfg0.win 2).blk t).view.emb y) 1) ((((cfg0.win 2).blk t).view.emb y) 2)
    (Fin.ext (by rw [E2, e22]; omega))
    (fun k => posBlock_read m c t _ _
      (by show ((((cfg0.win 2).blk t).view.emb y) 0).val = _ + 0; rw [E0]; omega)
      (by show ((((cfg0.win 2).blk t).view.emb y) 1).val = _ + (y 1).val; rw [E1]; omega)
      (by show k.val = _ + k.val; omega))
    (fun n k => itemBlock_read m c t _ _
      (by show ((((cfg0.win 2).blk t).view.emb y) 0).val = _ + 0; rw [E0]; omega)
      (by show n.val = _ + n.val; omega)
      (by show k.val = _ + k.val; omega))

/-- An index of the result array is in point t's block iff each coordinate is in the block's range on its axis. -/
theorem mem_block (t : Fin cfg0.N) (i : S32x512x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v0).slice (win0_2.rect t)).set ↔ _
  rw [View.set_slice_whole, Rect.mem_set_unit]
  exact Iff.rfl

/-- Every entry (b, l, d) of the result lies in the block of point 2·b + l / 256. -/
theorem covered (i : S32x512x128.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 128 := (i 2).isLt
  have hN : cfg0.N = 64 := N_0
  refine ⟨⟨(i 0).val * 2 + (i 1).val / 256, by rw [hN]; omega⟩, flush0_2 _, ?_⟩
  rw [mem_block]
  obtain ⟨e20, e21, e22, -⟩ := index_maps ⟨(i 0).val * 2 + (i 1).val / 256, by rw [hN]; omega⟩
  intro a
  match a with
  | ⟨0, _⟩ =>
    show win0_2.index _ (0 : Fin 3) * 1 ≤ (i 0).val ∧ (i 0).val < win0_2.index _ (0 : Fin 3) * 1 + 1
    rw [e20]; show ((i 0).val * 2 + (i 1).val / 256) / 2 * 1 ≤ _ ∧ _ < ((i 0).val * 2 + (i 1).val / 256) / 2 * 1 + 1; omega
  | ⟨1, _⟩ =>
    show win0_2.index _ (1 : Fin 3) * 256 ≤ (i 1).val ∧ (i 1).val < win0_2.index _ (1 : Fin 3) * 256 + 256
    rw [e21]; show ((i 0).val * 2 + (i 1).val / 256) % 2 * 256 ≤ _ ∧ _ < ((i 0).val * 2 + (i 1).val / 256) % 2 * 256 + 256; omega
  | ⟨2, _⟩ =>
    show win0_2.index _ (2 : Fin 3) * 128 ≤ (i 2).val ∧ (i 2).val < win0_2.index _ (2 : Fin 3) * 128 + 128
    rw [e22]; omega

/-- THE RESULT ARRAY after the run is the blend of the two argument arrays. -/
theorem final (c : Dev nD) :
    (dats m 0 c).arrAt 2 cfg0.N
      = attnLast (m ((c : Thread nD τ).loc main_arg0) : S32x512x128.Idx → EReal) (m ((c : Thread nD τ).loc main_arg1) : S32x2048x128.Idx → EReal) :=
  (dats m 0 c).arrAt_eq_of_cover 2 (attnLast (V m c main_arg0) (V m c main_arg1)) (fun t _ => flushed_eq m c t) covered

/-- The kernel's run with the result array named: the blend of the arguments, which end unchanged. -/
theorem run : θ_run defs (onTc (τ := τ) (main (F := Ideal))) ⟨m, fun _ => 0, ρ⟩ fun r => ∀ c : Dev nD,
      r.2.mem ((c : Thread nD τ).loc main_v0)
        = attnLast (m ((c : Thread nD τ).loc main_arg0) : S32x512x128.Idx → EReal) (m ((c : Thread nD τ).loc main_arg1) : S32x2048x128.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.RefValue.lean ====
/-
  The reference's result array as one function of the argument arrays.

  The reference forms all scores (a batched product of the sequence array with the item array along the features),
  takes each row's maximum and subtracts it, exponentiates, sums each row (from the zero word), raises the sum to
  the power 1/2 by the general power function, adds ε, divides every weight by that, multiplies the normalised
  weights with the items (a second batched product, along the items), and blends: x · 1/2 + (x · attention) · 1/2.
  Read at an index (b, l, d), stage by stage, this is Spec's `attnFirstAt`: every weight divided before the
  weighted sum.
-/
import proofs.«169750_j56530359550479_2_alg».proof.Proof.Gen.ReferenceIdeal.Read
import proofs.«169750_j56530359550479_2_alg».proof.Proof.LibColumnReads
import proofs.«169750_j56530359550479_2_alg».proof.Proof.Spec
import Idealize.ShloMosaic.Lib.ValueIdx

noncomputable section

open scoped BigOperators

namespace Cert.ReferenceIdeal.Whole

open Cert.ReferenceIdeal Cert.ReferenceIdeal.Gen Cert.ReferenceIdeal.Read Idealize.ShloMosaic
open Idealize.ShloMosaic.ValueIdx Cert.PowerAttention

variable (x0 : S32x512x128.Idx → EReal) (x1 : S32x2048x128.Idx → EReal)

/-! ## The stages' index maps at coordinates -/

theorem lidx0 (b : Fin 32) (l : Fin 512) (n : Fin 2048) (k : Fin 128) : lidx_main_v0 (ix3 b l n) k = ix3 b l k :=
  funext fun a => Fin.ext (by match a with | ⟨0, _⟩ => rfl | ⟨1, _⟩ => rfl | ⟨2, _⟩ => rfl)
theorem ridx0 (b : Fin 32) (l : Fin 512) (n : Fin 2048) (k : Fin 128) : ridx_main_v0 (ix3 b l n) k = ix3 b n k :=
  funext fun a => Fin.ext (by match a with | ⟨0, _⟩ => rfl | ⟨1, _⟩ => rfl | ⟨2, _⟩ => rfl)
theorem idx3 (b : Fin 32) (l : Fin 512) (n : Fin 2048) : idx_main_v2 (idx_main_v3 (ix3 b l n)) = ix2 b l :=
  funext fun a => Fin.ext (by match a with | ⟨0, _⟩ => rfl | ⟨1, _⟩ => rfl)
theorem idx6 (b : Fin 32) (l : Fin 512) (k : Fin 2048) : idx_main_v6 (ix2 b l) k = ix3 b l k :=
  funext fun a => Fin.ext (by match a with | ⟨0, _⟩ => rfl | ⟨1, _⟩ => rfl | ⟨2, _⟩ => rfl)
theorem idx12 (b : Fin 32) (l : Fin 512) (n : Fin 2048) : idx_main_v7 (idx_main_v12 (ix3 b l n)) = ix2 b l :=
  funext fun a => Fin.ext (by match a with | ⟨0, _⟩ => rfl | ⟨1, _⟩ => rfl)
theorem lidx14 (b : Fin 32) (l : Fin 512) (d : Fin 128) (k : Fin 2048) : lidx_main_v14 (ix3 b l d) k = ix3 b l k :=
  funext fun a => Fin.ext (by match a with | ⟨0, _⟩ => rfl | ⟨1, _⟩ => rfl | ⟨2, _⟩ => rfl)
theorem ridx14 (b : Fin 32) (l : Fin 512) (d : Fin 128) (k : Fin 2048) : ridx_main_v14 (ix3 b l d) k = ix3 b k d :=
  funext fun a => Fin.ext (by match a with | ⟨0, _⟩ => rfl | ⟨1, _⟩ => rfl | ⟨2, _⟩ => rfl)

/-! ## The stages at an index -/

/-- The first product holds the scores. -/
theorem scores_apply (b : Fin 32) (l : Fin 512) (n : Fin 2048) :
    val_main_v0 (F := Ideal) x0 x1 (ix3 b l n) = score x0 x1 b l n := by
  rw [val_main_v0_apply]
  unfold score
  simp only [lidx0, ridx0]

/-- The row maximum is the fold of max from −∞ over the row of scores. -/
theorem rowMax_apply (b : Fin 32) (l : Fin 512) :
    val_main_v1 (F := Ideal) x0 x1 (ix2 b l)
      = (Finset.univ : Finset (Fin 2048)).fold max (Ideal.ofBits .f32 0xFF800000#32) (score x0 x1 b l) := by
  unfold val_main_v1
  rw [Cert.ColumnReads.hostReduce_maximumf_last (val_main_v0 (F := Ideal) x0 x1) (val_main_cst (F := Ideal))
    reducesTo_S32x512x2048_S32x512_d2 (by decide) h_S_ b l]
  exact congrArg (fun g => (Finset.univ : Finset (Fin 2048)).fold max (Ideal.ofBits .f32 0xFF800000#32) g)
    (funext fun n => scores_apply x0 x1 b l n)

/-- The exponentials are the weights of the row of scores. -/
theorem weights_apply (b : Fin 32) (l : Fin 512) (n : Fin 2048) :
    val_main_v5 (F := Ideal) x0 x1 (ix3 b l n) = weight (score x0 x1 b l) n := by
  rw [val_main_v5_apply, val_main_v4_apply, val_main_v3_apply, val_main_v2_apply, idx3, rowMax_apply, scores_apply]
  rfl

/-- The row sums are the totals of the weights, started from the zero word. -/
theorem total_apply (b : Fin 32) (l : Fin 512) :
    val_main_v6 (F := Ideal) x0 x1 (ix2 b l)
      = Ideal.ofBits .f32 0x00000000#32 + ∑ n : Fin 2048, weight (score x0 x1 b l) n := by
  rw [val_main_v6_apply]
  simp only [idx6, weights_apply]
  rfl

/-- The divisor: the total to the power 1/2, plus ε. -/
theorem divisor_apply (b : Fin 32) (l : Fin 512) (n : Fin 2048) :
    val_main_v12 (F := Ideal) x0 x1 (ix3 b l n)
      = Ideal.pow (Ideal.ofBits .f32 0x00000000#32 + ∑ j : Fin 2048, weight (score x0 x1 b l) j) (Ideal.ofBits .f32 0x3F000000#32)
        + Ideal.ofBits .f32 0x179ABE15#32 := by
  rw [val_main_v12_apply, val_main_v11_apply, val_main_v9_apply, val_main_v7_apply, idx12, total_apply,
    val_main_v8_apply, val_main_cst_1_apply, val_main_v10_apply, val_main_cst_2_apply]
  rfl

/-- The attention value: the normalised weights against feature d of the items. -/
theorem attention_apply (b : Fin 32) (l : Fin 512) (d : Fin 128) :
    val_main_v14 (F := Ideal) x0 x1 (ix3 b l d) = normFirst (score x0 x1 b l) (fun n => x1 (ix3 b n d)) := by
  rw [val_main_v14_apply]
  unfold normFirst
  simp only [lidx14, ridx14, val_main_v13_apply, weights_apply, divisor_apply]
  rfl

/-- The reference's result at (b, l, d) is the blend with every weight divided first. -/
theorem result_apply (b : Fin 32) (l : Fin 512) (d : Fin 128) :
    val_main_v20 (F := Ideal) x0 x1 (ix3 b l d) = attnFirstAt x0 x1 b l d := by
  rw [val_main_v20_apply, val_main_v16_apply, val_main_v19_apply, val_main_v17_apply, attention_apply,
    val_main_v15_apply, val_main_cst_3_apply, val_main_v18_apply, val_main_cst_4_apply]
  rfl

/-- The reference's result array is `attnFirst` of the argument arrays. -/
theorem result_eq : val_main_v20 (F := Ideal) x0 x1 = attnFirst x0 x1 := by
  funext i
  obtain ⟨b, l, d, rfl⟩ : ∃ (b : Fin 32) (l : Fin 512) (d : Fin 128), i = ix3 b l d := ⟨i 0, i 1, i 2, eq_ix3 i⟩
  exact result_apply x0 x1 b l d

end Cert.ReferenceIdeal.Whole

end
-- ==== Proof.Finite.lean ====
/-
  The precondition read back: every entry of both argument arrays is a real number.

  The precondition is the conjunction of two tests, one per array: all entries x satisfy |x| < +∞, where
  |x| = max x (−x) on the extended reals. A conjunction of bits that is 1 has both bits 1; a reduction by "and"
  that is 1 met a 1 at every entry; and an extended real whose absolute value is below +∞ is neither infinity.
-/
import proofs.«169750_j56530359550479_2_alg».proof.Pre_finite_inputs
import proofs.«169750_j56530359550479_2_alg».proof.Proof.Gen.Pre_finite_inputs
import proofs.«169750_j56530359550479_2_alg».proof.Proof.LibRealSums
import Idealize.ShloMosaic.Lib.ReduceAll
import Idealize.ShloMosaic.Lib.ValueIdx
import Idealize.ShloMosaic.Lib.Pipeline.Value

noncomputable section

namespace Cert.FiniteInputs

open Idealize.ShloMosaic Cert.Math Cert.Pre_finite_inputs

instance : Subsingleton S_.Idx := ⟨fun a b => funext fun d => d.elim0⟩

/-- The bit of the test |x| < +∞ is 1 only for a real x. -/
theorem isReal_of_bit (x : EReal) (h : Ideal.cmp .olt (max x (-x)) (Ideal.ofBits .f32 0x7F800000#32) = 1#1) : IsReal x := by
  rw [ofBits_inf] at h
  apply isReal_of_abs_lt_top
  by_contra hn
  simp [Ideal.cmp, hn] at h

/-- Where the precondition holds, both argument arrays hold real numbers. -/
theorem real_of_pre (x0 : S32x512x128.Idx → EReal) (x1 : S32x2048x128.Idx → EReal)
    (h : Cert.Pre_finite_inputs.fn (F := Ideal) x0 x1 = fun _ => 1#1) :
    (∀ i, IsReal (x0 i)) ∧ (∀ i, IsReal (x1 i)) := by
  have h0 := congrFun h ValueIdx.ix0
  dsimp only [Cert.Pre_finite_inputs.fn] at h0
  obtain ⟨ha, hb⟩ := IntOp.andi_eq_one.mp h0
  refine ⟨fun i => ?_, fun i => ?_⟩
  · have e := Host.reduce_andi_all _ _ _ _ _ ha i
    have eb : broadcastInDim S32x512x128 ![] Facts.bcast_S_S32x512x128 (constant (F := Ideal) S_ .f32 0x7F800000#32) i
        = Ideal.ofBits .f32 0x7F800000#32 :=
      broadcastInDim_apply _ Facts.bcast_S_S32x512x128 _ i ValueIdx.ix0 (fun a => a.elim0)
    have e' : Ideal.cmp .olt (max (x0 i) (-(x0 i)))
        (broadcastInDim S32x512x128 ![] Facts.bcast_S_S32x512x128 (constant (F := Ideal) S_ .f32 0x7F800000#32) i) = 1#1 := e
    rw [eb] at e'
    exact isReal_of_bit _ e'
  · have e := Host.reduce_andi_all _ _ _ _ _ hb i
    have eb : broadcastInDim S32x2048x128 ![] Facts.bcast_S_S32x2048x128 (constant (F := Ideal) S_ .f32 0x7F800000#32) i
        = Ideal.ofBits .f32 0x7F800000#32 :=
      broadcastInDim_apply _ Facts.bcast_S_S32x2048x128 _ i ValueIdx.ix0 (fun a => a.elim0)
    have e' : Ideal.cmp .olt (max (x1 i) (-(x1 i)))
        (broadcastInDim S32x2048x128 ![] Facts.bcast_S_S32x2048x128 (constant (F := Ideal) S_ .f32 0x7F800000#32) i) = 1#1 := e
    rw [eb] at e'
    exact isReal_of_bit _ e'

end Cert.FiniteInputs

end
-- ==== Proof.lean ====
/-
  The kernel computes a power-normalised attention blend over f32[32, 512, 128] positions and f32[32, 2048, 128]
  items: for every batch and position the scores against all items of the batch, the weights e^(score − max), their
  total T, the weighted sum of the items' features, and out = x · 1/2 + (x · attention) · 1/2. The kernel divides the
  finished weighted sum by √T + ε; the reference divides every weight by T^(1/2) + ε before the weighted sum. On the
  extended reals the two agree when the inputs are real numbers (the precondition): T is then a positive real,
  T^(1/2) = √T, and multiplication by the real 1 / (√T + ε) moves across the finite sum (RowLaw, Spec).

  KernelBlock reads one grid point's stored block at an index, KernelValue assembles the 64 blocks into the whole
  result array, RefValue reads the reference's result at an index, Finite reads the precondition back as "every
  entry is real". The three frames are the generated frame runs; the idealization rewrote nothing.
-/
import proofs.«169750_j56530359550479_2_alg».proof.Defs
import proofs.«169750_j56530359550479_2_alg».proof.Proof.Gen.Kernel
import proofs.«169750_j56530359550479_2_alg».proof.Proof.Gen.Kernel.Skeleton
import proofs.«169750_j56530359550479_2_alg».proof.Proof.Gen.Kernel.Launch
import proofs.«169750_j56530359550479_2_alg».proof.Proof.Gen.Kernel.Points
import proofs.«169750_j56530359550479_2_alg».proof.Proof.Gen.Kernel.Frame
import proofs.«169750_j56530359550479_2_alg».proof.Proof.Gen.KernelIdeal
import proofs.«169750_j56530359550479_2_alg».proof.Proof.Gen.KernelIdeal.Skeleton
import proofs.«169750_j56530359550479_2_alg».proof.Proof.Gen.KernelIdeal.Launch
import proofs.«169750_j56530359550479_2_alg».proof.Proof.Gen.KernelIdeal.Points
import proofs.«169750_j56530359550479_2_alg».proof.Proof.Gen.KernelIdeal.Frame
import proofs.«169750_j56530359550479_2_alg».proof.Proof.Gen.ReferenceIdeal
import proofs.«169750_j56530359550479_2_alg».proof.Proof.Gen.Pre_finite_inputs
import proofs.«169750_j56530359550479_2_alg».proof.Proof.Gen.KernelIdeal.Value
import proofs.«169750_j56530359550479_2_alg».proof.Proof.Gen.ReferenceIdeal.Run
import proofs.«169750_j56530359550479_2_alg».proof.Proof.Gen.ReferenceIdeal.Read
import proofs.«169750_j56530359550479_2_alg».proof.Proof.KernelValue
import proofs.«169750_j56530359550479_2_alg».proof.Proof.RefValue
import proofs.«169750_j56530359550479_2_alg».proof.Proof.Finite
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the blend of the argument arrays: the kernel with the divisor applied last, the
    reference with it applied to every weight first, one array where the arguments are real. -/
theorem algebraic : Cert.algebraic_KernelIdeal_ReferenceIdeal := by
  intro m ρ m' ρ' hpre hagree
  refine ⟨fun c => Cert.PowerAttention.attnLast
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Whole.result_eq, (hagree c).1, (hagree c).2]
  obtain ⟨hx, hf⟩ := Cert.FiniteInputs.real_of_pre _ _ (hpre c)
  exact Cert.PowerAttention.attn_first_eq_last _ _ hx hf

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
